-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Setup.lean ====
/- The graph-convolution kernel's grid, seen from one core: what each window's array holds when the
   region is entered, the block of it each grid point is handed, the one branch of the body (taken at the
   first point only, where the projection features·weight is stored into the scratch), and the fact that
   every input window's staging buffer holds the block of its array at every point, fetched there or not. -/
import proofs.«157339_g15178414424503_retrytranche2_113_5_alg».proof.Proof.Gen.Kernel.Launch
import proofs.«157339_g15178414424503_retrytranche2_113_5_alg».proof.Proof.Gen.Kernel.Skeleton
import proofs.«157339_g15178414424503_retrytranche2_113_5_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers as the region finds them: @main is the region alone, so these are the launch
    contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point: fetched there, or — the index
    not having moved since the last fetch — left there by a body that only reads it. One statement per
    input window (features, weight, and the two halves of the support block). -/
theorem before_features {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_weight {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_upper {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_lower {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is point 0". -/
abbrev isFirst (i : grid0.Coords) : Prop := (Scalar.cmpi .ne (Scalar.extui (Scalar.cmpi .eq (BitVec.ofNat 32 (i 0).val) 0#32)) 0#32) = 1#1
/-- It holds at the first of the 25 points and at no other. -/
theorem isFirst_iff : ∀ t : Fin cfg0.N, isFirst (grid0.coords t) ↔ t.val = 0 :=
  (by decide +kernel : ∀ t : Fin grid0.N, isFirst (grid0.coords t) ↔ t.val = 0)

/-- Each window's current staging memref at point `t`, as the pipeline passes it to the body, and its wholeness. -/
abbrev msF (t : Fin cfg0.N) : Memref sig .tc .vmem S10000x128 .f32 := win0_0.stage (cfg0.slots t 0)
abbrev hsF (t : Fin cfg0.N) : (msF t).IsWhole := hstage0_0 ((cfg0.slots t 0).cast nbuf0_0)
abbrev msW (t : Fin cfg0.N) : Memref sig .tc .vmem S128x128 .f32 := win0_1.stage (cfg0.slots t 1)
abbrev hsW (t : Fin cfg0.N) : (msW t).IsWhole := hstage0_1 ((cfg0.slots t 1).cast nbuf0_1)
abbrev msA (t : Fin cfg0.N) : Memref sig .tc .vmem S200x10000 .f32 := win0_2.stage (cfg0.slots t 2)
abbrev hsA (t : Fin cfg0.N) : (msA t).IsWhole := hstage0_2 ((cfg0.slots t 2).cast nbuf0_2)
abbrev msB (t : Fin cfg0.N) : Memref sig .tc .vmem S200x10000 .f32 := win0_3.stage (cfg0.slots t 3)
abbrev hsB (t : Fin cfg0.N) : (msB t).IsWhole := hstage0_3 ((cfg0.slots t 3).cast nbuf0_3)
abbrev msO (t : Fin cfg0.N) : Memref sig .tc .vmem S400x128 .f32 := win0_4.stage (cfg0.slots t 4)
abbrev hsO (t : Fin cfg0.N) : (msO t).IsWhole := hstage0_4 ((cfg0.slots t 4).cast nbuf0_4)
/-- The scratch that keeps the projection between points: a whole scoped buffer of the kernel's own. -/
abbrev scP : Memref sig .tc .vmem S10000x128 .f32 := Memref.whole cc0_scratch0
/-- Views through which the output block's and the scratch's contents are stated. -/
abbrev VOut : View sig .tc .vmem S400x128 .f32 := (Memref.whole cc0_stg4_0 : Memref sig .tc .vmem S400x128 .f32).view
abbrev VScr : View sig .tc .vmem S10000x128 .f32 := scP.view

/-- The core's scoped buffers that the pipeline does not stage are the scratch alone, owned at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scP fullShare d) := by
  rw [scopedRest0_eq]; simp only [scP, owns_whole]; try rfl

end Cert.Kernel.Gcn

end
-- ==== Proof.K.RunFirst.lean ====
/- The body at the first grid point, run once on any whole staging memrefs: the projection features·weight is
   stored over the whole scratch, then the two 200-row halves of the output block are stored, each computed from
   one half of the support block and the scratch as just written. The pieces each buffer ends with are found by
   the run itself. -/
import proofs.«157339_g15178414424503_retrytranche2_113_5_alg».proof.Proof.K.Setup

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point's run: the output block's and the scratch's stores as pieces (last first), with the proof
    that, holding the four input buffers at their contents and the output buffer and the scratch at anything,
    the body runs to a continuation holding the inputs as they were and the two written buffers with those
    pieces written. -/
noncomputable def runFirst (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) :
    Σ' (LO : List (View.Piece (Elt F) S400x128 .f32)), { LS : List (View.Piece (Elt F) S10000x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ (∃ d, owns (c : Thread nD τ) a5 fullShare d) ∗ (∃ d, owns (c : Thread nD τ) a6 fullShare d)
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f LO)
                ∗ (∃ f, a6.view.loc (c : Thread nD τ) ↦[a6.view.set]{fullShare} a6.view.writes (Elt F) f LS)) -∗ K ⟨⟩))
          ⊢ wp frame (wpE (defs₀ (F := F)) Variants.none c none) E (cc0__gcn_kernel i a1 h1 a2 h2 a3 h3 a4 h4 a5 h5 a6 h6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := h1.eq_unread hf0; obtain rfl := h2.eq_unread hf1; obtain rfl := h3.eq_unread hf2; obtain rfl := h4.eq_unread hf3
    sl_exec (disch := exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    iexists _; iexact H5

end Cert.Kernel.Gcn

end
-- ==== Proof.K.RunLater.lean ====
/- The body at a later grid point, run once on any whole staging memrefs: the branch is skipped, the scratch is
   only read (it holds what the first point stored), and the two 200-row halves of the output block are stored,
   each computed from one half of the support block and the scratch. -/
import proofs.«157339_g15178414424503_retrytranche2_113_5_alg».proof.Proof.K.Setup

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A later point's run: the output block's stores as pieces (last first), with the proof that, holding the
    two support halves at their contents, the scratch at `xs`, the features and weight buffers and the output
    buffer at anything they are handed at, the body runs to a continuation holding everything it only read as it
    was and the output buffer with those pieces written. -/
noncomputable def runLater (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : ¬isFirst i)
    (x0 : Vec F S10000x128 .f32) (x1 : Vec F S128x128 .f32) (x2 : Vec F S200x10000 .f32) (x3 : Vec F S200x10000 .f32) (xs : Vec F S10000x128 .f32) :
    { LO : List (View.Piece (Elt F) S400x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ (∃ d, owns (c : Thread nD τ) a5 fullShare d) ∗ owns (c : Thread nD τ) a6 fullShare xs
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f LO)
                ∗ owns (c : Thread nD τ) a6 fullShare xs) -∗ K ⟨⟩))
          ⊢ wp frame (wpE (defs₀ (F := F)) Variants.none c none) E (cc0__gcn_kernel i a1 h1 a2 h2 a3 h3 a4 h4 a5 h5 a6 h6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := h1.eq_unread hf0; obtain rfl := h2.eq_unread hf1; obtain rfl := h3.eq_unread hf2; obtain rfl := h4.eq_unread hf3; obtain rfl := h6.eq_unread hf5
    sl_exec (disch := exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    iexists _; isplitr; · ipureintro; exact h6.read_unread _
    iexact H5

end Cert.Kernel.Gcn

end
-- ==== Proof.K.Body.lean ====
/- What the graph-convolution body leaves behind, point by point, and the body obligation.
   The scratch holds the projection features·weight from the first point on and is never stored again, so the
   region's invariant after any point names one and the same contents; the output block after a point is the
   two stored halves read back. The support array is read through two windows (the upper and the lower half of
   each 400-row block), each holding half of the array's share. -/
import proofs.«157339_g15178414424503_retrytranche2_113_5_alg».proof.Proof.K.RunFirst
import proofs.«157339_g15178414424503_retrytranche2_113_5_alg».proof.Proof.K.RunLater

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its pieces -/

/-- The first point's one store into the scratch covers it. -/
theorem coverScr_first (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) (y : S10000x128.Idx) :
    ∃ pc ∈ (runFirst c i a1 h1 a2 h2 a3 h3 a4 h4 a5 h5 a6 h6 hc x0 x1 x2 x3).2.1, y ∈ pc.1.set :=
  View.cover_of_tiledL (runFirst c i a1 h1 a2 h2 a3 h3 a4 h4 a5 h5 a6 h6 hc x0 x1 x2 x3).2.1 S10000x128.size (by sl_kernel_rfl) y

/-- What the first point leaves in the scratch. -/
def scrFirst (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) : Vec F S10000x128 .f32 :=
  VScr.read (Elt F) (VScr.writes (Elt F) VScr.junk (runFirst c i a1 h1 a2 h2 a3 h3 a4 h4 a5 h5 a6 h6 hc x0 x1 x2 x3).2.1)

/-- The first point's two stores into the output block tile it. -/
theorem coverOut_first (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) (y : S400x128.Idx) :
    ∃ pc ∈ (runFirst c i a1 h1 a2 h2 a3 h3 a4 h4 a5 h5 a6 h6 hc x0 x1 x2 x3).1, y ∈ pc.1.set :=
  View.cover_of_tiledL (runFirst c i a1 h1 a2 h2 a3 h3 a4 h4 a5 h5 a6 h6 hc x0 x1 x2 x3).1 S200x128.size (by sl_kernel_rfl) y

/-- What the first point leaves in the output block's buffer. -/
def outFirst (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) : Vec F S400x128 .f32 :=
  VOut.read (Elt F) (VOut.writes (Elt F) VOut.junk (runFirst c i a1 h1 a2 h2 a3 h3 a4 h4 a5 h5 a6 h6 hc x0 x1 x2 x3).1)

/-- A later point's two stores into the output block tile it. -/
theorem coverOut_later (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : ¬isFirst i)
    (x0 : Vec F S10000x128 .f32) (x1 : Vec F S128x128 .f32) (x2 : Vec F S200x10000 .f32) (x3 : Vec F S200x10000 .f32) (xs : Vec F S10000x128 .f32) (y : S400x128.Idx) :
    ∃ pc ∈ (runLater c i a1 h1 a2 h2 a3 h3 a4 h4 a5 h5 a6 h6 hc x0 x1 x2 x3 xs).1, y ∈ pc.1.set :=
  View.cover_of_tiledL (runLater c i a1 h1 a2 h2 a3 h3 a4 h4 a5 h5 a6 h6 hc x0 x1 x2 x3 xs).1 S200x128.size (by sl_kernel_rfl) y

/-- What a later point leaves in the output block's buffer. -/
def outLater (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : ¬isFirst i)
    (x0 : Vec F S10000x128 .f32) (x1 : Vec F S128x128 .f32) (x2 : Vec F S200x10000 .f32) (x3 : Vec F S200x10000 .f32) (xs : Vec F S10000x128 .f32) : Vec F S400x128 .f32 :=
  VOut.read (Elt F) (VOut.writes (Elt F) VOut.junk (runLater c i a1 h1 a2 h2 a3 h3 a4 h4 a5 h5 a6 h6 hc x0 x1 x2 x3 xs).1)

/-! ## Point by point -/

/-- The grid's first point. -/
def t0 : Fin cfg0.N := ⟨0, lt_of_lt_of_eq (by decide) N_0.symm⟩
theorem t0_val : (t0 : Fin cfg0.N).val = 0 := rfl

/-- The projection as the scratch holds it after the first point (and ever after). -/
def proj (c : Dev nD) : Vec F S10000x128 .f32 :=
  scrFirst c (grid0.coords t0) (msF t0) (hsF t0) (msW t0) (hsW t0) (msA t0) (hsA t0) (msB t0) (hsB t0) (msO t0) (hsO t0) scP (Memref.isWhole_whole _) ((isFirst_iff t0).mpr t0_val) (iblk m c 0 t0) (iblk m c 1 t0) (iblk m c 2 t0) (iblk m c 3 t0)

/-- What the output block's buffer holds after the body at point `t`. -/
def outAt (c : Dev nD) (t : Fin cfg0.N) : Vec F S400x128 .f32 :=
  if h : t.val = 0 then outFirst c (grid0.coords t) (msF t) (hsF t) (msW t) (hsW t) (msA t) (hsA t) (msB t) (hsB t) (msO t) (hsO t) scP (Memref.isWhole_whole _) ((isFirst_iff t).mpr h) (iblk m c 0 t) (iblk m c 1 t) (iblk m c 2 t) (iblk m c 3 t)
  else outLater c (grid0.coords t) (msF t) (hsF t) (msW t) (hsW t) (msA t) (hsA t) (msB t) (hsB t) (msO t) (hsO t) scP (Memref.isWhole_whole _) (fun h' => h ((isFirst_iff t).mp h')) (iblk m c 0 t) (iblk m c 1 t) (iblk m c 2 t) (iblk m c 3 t) (proj m c)

/-- The region's invariant before position `n`: before the first point the scratch at anything;
    afterwards the scratch at the projection. -/
def PhiS (c : Dev nD) : ℕ → sProp 𝕄
  | 0 => iprop(∃ d, owns (c : Thread nD τ) scP fullShare d)
  | _ + 1 => owns (c : Thread nD τ) scP fullShare (proj m c)

theorem PhiS_succ (c : Dev nD) (n : ℕ) :
    PhiS m c (n + 1) = owns (c : Thread nD τ) scP fullShare (proj m c) := rfl
theorem PhiS_pos (c : Dev nD) (n : ℕ) (hz : n ≠ 0) :
    PhiS m c n = owns (c : Thread nD τ) scP fullShare (proj m c) := by
  cases n with
  | zero => exact absurd rfl hz
  | succ n => rfl

/-! ## The proof data -/

/-- One core's proof data: the arrays as the region finds them; after the body each input's buffer at its
    block and the output's at `outAt`; the invariant `PhiS`; nothing owed; the support array's two windows
    each at half its share, every other window's array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_features (c : Dev nD) (t : Fin cfg0.N) : (dats m 0 c).after 0 t = iblk m c 0 t := by dsimp only [dats]
theorem after_weight (c : Dev nD) (t : Fin cfg0.N) : (dats m 0 c).after 1 t = iblk m c 1 t := by dsimp only [dats]
theorem after_upper (c : Dev nD) (t : Fin cfg0.N) : (dats m 0 c).after 2 t = iblk m c 2 t := by dsimp only [dats]
theorem after_lower (c : Dev nD) (t : Fin cfg0.N) : (dats m 0 c).after 3 t = iblk m c 3 t := by dsimp only [dats]
theorem after_out (c : Dev nD) (t : Fin cfg0.N) : (dats m 0 c).after 4 t = outAt m c t := by dsimp only [dats]

theorem found_features (c : Dev nD) (t : Fin cfg0.N) (d) : (dats m 0 c).before 0 t d = iblk m c 0 t :=
  before_features m (dats m 0 c) (A_eq m c 0) (after_features m c) t d
theorem found_weight (c : Dev nD) (t : Fin cfg0.N) (d) : (dats m 0 c).before 1 t d = iblk m c 1 t :=
  before_weight m (dats m 0 c) (A_eq m c 1) (after_weight m c) t d
theorem found_upper (c : Dev nD) (t : Fin cfg0.N) (d) : (dats m 0 c).before 2 t d = iblk m c 2 t :=
  before_upper m (dats m 0 c) (A_eq m c 2) (after_upper m c) t d
theorem found_lower (c : Dev nD) (t : Fin cfg0.N) (d) : (dats m 0 c).before 3 t d = iblk m c 3 t :=
  before_lower m (dats m 0 c) (A_eq m c 3) (after_lower m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (msF t) fullShare ((dats m 0 c).before 0 t d))
    ∗ (∃ d, owns (c : Thread nD τ) (msW t) fullShare ((dats m 0 c).before 1 t d))
    ∗ (∃ d, owns (c : Thread nD τ) (msA t) fullShare ((dats m 0 c).before 2 t d))
    ∗ (∃ d, owns (c : Thread nD τ) (msB t) fullShare ((dats m 0 c).before 3 t d))
    ∗ (∃ d, owns (c : Thread nD τ) (msO t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (msF t) fullShare ((dats m 0 c).after 0 t)
    ∗ owns (c : Thread nD τ) (msW t) fullShare ((dats m 0 c).after 1 t)
    ∗ owns (c : Thread nD τ) (msA t) fullShare ((dats m 0 c).after 2 t)
    ∗ owns (c : Thread nD τ) (msB t) fullShare ((dats m 0 c).after 3 t)
    ∗ owns (c : Thread nD τ) (msO t) fullShare ((dats m 0 c).after 4 t))

set_option maxHeartbeats 4800000 in
/-- The body at any point. The inputs' buffers hold their blocks; at the first point the invariant hands the
    scratch over at anything and takes it back at the projection (the one store covers it); at a later point
    it hands the scratch over at the projection and takes it back untouched; the output buffer is taken back at
    the two stored halves read back (they tile it). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_features, found_weight, found_upper, found_lower]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  rw [after_features, after_weight, after_upper, after_lower, after_out]
  by_cases hz : t.val = 0
  · rw [show PhiS m c t.val = iprop(∃ d, owns (c : Thread nD τ) scP fullShare d) from by rw [hz]; rfl]
    rw [show outAt m c t = outFirst c (grid0.coords t) (msF t) (hsF t) (msW t) (hsW t) (msA t) (hsA t) (msB t) (hsB t) (msO t) (hsO t) scP (Memref.isWhole_whole _) ((isFirst_iff t).mpr hz) (iblk m c 0 t) (iblk m c 1 t) (iblk m c 2 t) (iblk m c 3 t) from dif_pos hz]
    unfold outFirst
    iintro ⟨HS, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro
      have ht : t = t0 := Fin.ext hz
      subst ht
      unfold proj scrFirst
      exact View.read_writes_of_cover _ _ _ _ _ (coverScr_first c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut_first c _ _ _ _ _ _ _ _ _ _ _ _ _ _ _ _ _ _)
  · rw [PhiS_pos m c _ hz]
    rw [show outAt m c t = outLater c (grid0.coords t) (msF t) (hsF t) (msW t) (hsW t) (msA t) (hsA t) (msB t) (hsB t) (msO t) (hsO t) scP (Memref.isWhole_whole _) (fun h' => hz ((isFirst_iff t).mp h')) (iblk m c 0 t) (iblk m c 1 t) (iblk m c 2 t) (iblk m c 3 t) (proj m c) from dif_neg hz]
    unfold outLater
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h' => hz ((isFirst_iff t).mp h')) (iblk m c 0 t) (iblk m c 1 t) (iblk m c 2 t) (iblk m c 3 t) (proj m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut_later c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The scratch at anything is the invariant before the first point. -/
theorem hin (c : Dev nD) : iprop(∃ d, owns (c : Thread nD τ) scP fullShare d) ⊢ (dats m 0 c).Φ 0 := by
  rw [show (dats m 0 c).Φ 0 = PhiS m c 0 from rfl]
  exact Idealize.SL.BI.Entails.refl _

/-- After the last point the invariant gives the scratch back at some contents: what it holds is forgotten. -/
theorem hout (c : Dev nD) : (dats m 0 c).Φ (Fin.last cfg0.N) ⊢ iprop(∃ d, owns (c : Thread nD τ) scP fullShare d) := by
  rw [show (dats m 0 c).Φ (Fin.last cfg0.N) = PhiS m c (Fin.last cfg0.N).val from rfl,
    PhiS_pos m c _ (by rw [Fin.val_last]; have : cfg0.N = 25 := N_0; omega)]
  iintro HS
  iexists _; iexact HS

end Cert.Kernel.Gcn

end
-- ==== Proof.K.Launch.lean ====
/- The launch of the graph-convolution kernel and its frame. The kernel is handed the support array twice (the
   upper and the lower half of each 400-row block are two windows on one array), so the array's full share is dealt
   between the two windows, half each; every other array goes to its one window whole. The run then follows from the
   library's launch theorem for a kernel with no semaphore of its own whose windows may share arrays, with the body
   obligation and the scratch invariant of the previous module. -/
import proofs.«157339_g15178414424503_retrytranche2_113_5_alg».proof.Proof.K.Body

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's ghost state is the whole user algebra. -/
abbrev EP : Emb (UR sig nD τ) (MT nD τ sig Unit (Elt F) ℕ (UR sig nD τ) ℕ) := emb₁

/-- The launch element: every staging cell's owner at round 0 and a duty token for every transfer the pipeline
    issues. -/
def u₀ : UR sig nD τ := initOf (Pipeline.cells cfgs cellOf_inj) (Pipeline.launchToks cfgs cellOf_inj)

/-- An array's contents after the run, as the library computes them from the proof data. -/
def finalA (c : Dev nD) (w : Fin cfg0.W) : Buf (Elt F) ((cfg0.win w).arr.view.loc (c : Thread nD τ)) :=
  (dats m 0 c).arrAt w cfg0.N

/-- The run's post: every window's array holds what the library computes it holds after the last write-back. -/
def QC : PUnit × MemSt nD τ sig (Elt F) → Prop := fun r =>
  ∀ (c : Dev nD) (w : Fin cfg0.W), r.2.mem ((cfg0.win w).arr.view.loc (c : Thread nD τ)) = finalA m c w

/-- A window's array is a whole buffer, so the points-to over its view's elements is the points-to over the buffer. -/
theorem arr_pt (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = ((cfg0.win w).arr.view.loc (c.tc : Thread nD τ) ↦{q} f) := by
  have h : (cfg0.win w).arr.IsWhole := arr_whole0 w
  rw [h.set_eq_univ]

/-- The four distinct buffers behind the five windows, each whole at the full share, make the proof data's arrays
    at entry: features, weight and the result each to its window; the support array split in two halves of its
    share, one per window on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have hL : (bigSep (Finset.univ.image (Pipeline.arrRef spec0)) fun b => (((c.tc : Thread nD τ).loc b) ↦{fullShare} V m c b : sProp 𝕄))
      = iprop((((c.tc : Thread nD τ).loc main_arg0) ↦{fullShare} V m c main_arg0) ∗ (((c.tc : Thread nD τ).loc main_arg2) ↦{fullShare} V m c main_arg2)
          ∗ (((c.tc : Thread nD τ).loc main_arg1) ↦{fullShare} V m c main_arg1) ∗ (((c.tc : Thread nD τ).loc main_v0) ↦{fullShare} V m c main_v0)) :=
    BI.bigSep_eq_bigSepL_of_eq [main_arg0, main_arg2, main_arg1, main_v0] (by decide) (by decide) _
  rw [bigSep_W0, hL, arr_pt c 0, arr_pt c 1, arr_pt c 2, arr_pt c 3, arr_pt c 4]
  iintro ⟨H0, H2, H1, Hv⟩
  ihave ⟨H1a, H1b⟩ := (pointsTo_share (PosShare.mem_left_op_right fullShare)).1 $$ H1
  isplitl [H0]; · iexact H0
  isplitl [H2]; · iexact H2
  isplitl [H1a]; · iexact H1a
  isplitl [H1b]; · iexact H1b
  iexact Hv

set_option backward.isDefEq.respectTransparency.types false in
/-- At the compiled mesh, from any memory with zero counters: every weakly fair execution of @main terminates, and
    every final state has each window's array at what the library computes from the proof data. -/
theorem run_main : θ_run defs (onTc (τ := τ) (main (F := F))) (s₀ m ρ) (QC m) := by
  classical
  exact Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [scoped_eq]
      iintro ⟨-, HS⟩
      iapply (hin m c); iexact HS)
    (hout := fun c => by
      rw [scoped_eq]
      iintro HS
      isplitr; · iempintro
      iapply (hout m c); iexact HS)
    (QY := fun _ _ => True)
    (hY := fun c s' => by
      iintro ⟨-, -, HSI⟩; imodintro
      isplitr; · ipureintro; trivial
      iexact HSI)
    (hQ := fun _ h c w => (h c).1 w)

/-- The input arrays end as they began: the library never writes an input window's array. -/
theorem final_features (c : Dev nD) : finalA m c (0 : Fin 5) = m ((c : Thread nD τ).loc main_arg0) :=
  (dats (F := F) m 0 c).arrAt_in (0 : Fin 5) rfl _
theorem final_weight (c : Dev nD) : finalA m c (1 : Fin 5) = m ((c : Thread nD τ).loc main_arg2) :=
  (dats (F := F) m 0 c).arrAt_in (1 : Fin 5) rfl _
theorem final_support (c : Dev nD) : finalA m c (2 : Fin 5) = m ((c : Thread nD τ).loc main_arg1) :=
  (dats (F := F) m 0 c).arrAt_in (2 : Fin 5) rfl _

/-- THE FRAME, at any instance: the program runs to the end without a fault and its three argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c (0 : Fin 5)).trans (final_features m c), (h c (2 : Fin 5)).trans (final_support m c),
      (h c (1 : Fin 5)).trans (final_weight m c)⟩)
    (run_main m ρ)

end Cert.Kernel.Gcn

end
-- ==== Proof.KI.Setup.lean ====
/- The graph-convolution kernel's grid, seen from one core: what each window's array holds when the
   region is entered, the block of it each grid point is handed, the one branch of the body (taken at the
   first point only, where the projection features·weight is stored into the scratch), and the fact that
   every input window's staging buffer holds the block of its array at every point, fetched there or not. -/
import proofs.«157339_g15178414424503_retrytranche2_113_5_alg».proof.Proof.Gen.KernelIdeal.Launch
import proofs.«157339_g15178414424503_retrytranche2_113_5_alg».proof.Proof.Gen.KernelIdeal.Skeleton
import proofs.«157339_g15178414424503_retrytranche2_113_5_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers as the region finds them: @main is the region alone, so these are the launch
    contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point: fetched there, or — the index
    not having moved since the last fetch — left there by a body that only reads it. One statement per
    input window (features, weight, and the two halves of the support block). -/
theorem before_features {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_weight {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_upper {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_lower {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is point 0". -/
abbrev isFirst (i : grid0.Coords) : Prop := (Scalar.cmpi .ne (Scalar.extui (Scalar.cmpi .eq (BitVec.ofNat 32 (i 0).val) 0#32)) 0#32) = 1#1
/-- It holds at the first of the 25 points and at no other. -/
theorem isFirst_iff : ∀ t : Fin cfg0.N, isFirst (grid0.coords t) ↔ t.val = 0 :=
  (by decide +kernel : ∀ t : Fin grid0.N, isFirst (grid0.coords t) ↔ t.val = 0)

/-- Each window's current staging memref at point `t`, as the pipeline passes it to the body, and its wholeness. -/
abbrev msF (t : Fin cfg0.N) : Memref sig .tc .vmem S10000x128 .f32 := win0_0.stage (cfg0.slots t 0)
abbrev hsF (t : Fin cfg0.N) : (msF t).IsWhole := hstage0_0 ((cfg0.slots t 0).cast nbuf0_0)
abbrev msW (t : Fin cfg0.N) : Memref sig .tc .vmem S128x128 .f32 := win0_1.stage (cfg0.slots t 1)
abbrev hsW (t : Fin cfg0.N) : (msW t).IsWhole := hstage0_1 ((cfg0.slots t 1).cast nbuf0_1)
abbrev msA (t : Fin cfg0.N) : Memref sig .tc .vmem S200x10000 .f32 := win0_2.stage (cfg0.slots t 2)
abbrev hsA (t : Fin cfg0.N) : (msA t).IsWhole := hstage0_2 ((cfg0.slots t 2).cast nbuf0_2)
abbrev msB (t : Fin cfg0.N) : Memref sig .tc .vmem S200x10000 .f32 := win0_3.stage (cfg0.slots t 3)
abbrev hsB (t : Fin cfg0.N) : (msB t).IsWhole := hstage0_3 ((cfg0.slots t 3).cast nbuf0_3)
abbrev msO (t : Fin cfg0.N) : Memref sig .tc .vmem S400x128 .f32 := win0_4.stage (cfg0.slots t 4)
abbrev hsO (t : Fin cfg0.N) : (msO t).IsWhole := hstage0_4 ((cfg0.slots t 4).cast nbuf0_4)
/-- The scratch that keeps the projection between points: a whole scoped buffer of the kernel's own. -/
abbrev scP : Memref sig .tc .vmem S10000x128 .f32 := Memref.whole cc0_scratch0
/-- Views through which the output block's and the scratch's contents are stated. -/
abbrev VOut : View sig .tc .vmem S400x128 .f32 := (Memref.whole cc0_stg4_0 : Memref sig .tc .vmem S400x128 .f32).view
abbrev VScr : View sig .tc .vmem S10000x128 .f32 := scP.view

/-- The core's scoped buffers that the pipeline does not stage are the scratch alone, owned at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scP fullShare d) := by
  rw [scopedRest0_eq]; simp only [scP, owns_whole]; try rfl

end Cert.KernelIdeal.Gcn

end
-- ==== Proof.KI.RunFirst.lean ====
/- The body at the first grid point, run once on any whole staging memrefs: the projection features·weight is
   stored over the whole scratch, then the two 200-row halves of the output block are stored, each computed from
   one half of the support block and the scratch as just written. The pieces each buffer ends with are found by
   the run itself. -/
import proofs.«157339_g15178414424503_retrytranche2_113_5_alg».proof.Proof.KI.Setup

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point's run: the output block's and the scratch's stores as pieces (last first), with the proof
    that, holding the four input buffers at their contents and the output buffer and the scratch at anything,
    the body runs to a continuation holding the inputs as they were and the two written buffers with those
    pieces written. -/
noncomputable def runFirst (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) :
    Σ' (LO : List (View.Piece (Elt F) S400x128 .f32)), { LS : List (View.Piece (Elt F) S10000x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ (∃ d, owns (c : Thread nD τ) a5 fullShare d) ∗ (∃ d, owns (c : Thread nD τ) a6 fullShare d)
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f LO)
                ∗ (∃ f, a6.view.loc (c : Thread nD τ) ↦[a6.view.set]{fullShare} a6.view.writes (Elt F) f LS)) -∗ K ⟨⟩))
          ⊢ wp frame (wpE (defs₀ (F := F)) Variants.none c none) E (cc0__gcn_kernel i a1 h1 a2 h2 a3 h3 a4 h4 a5 h5 a6 h6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := h1.eq_unread hf0; obtain rfl := h2.eq_unread hf1; obtain rfl := h3.eq_unread hf2; obtain rfl := h4.eq_unread hf3
    sl_exec (disch := exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    iexists _; iexact H5

end Cert.KernelIdeal.Gcn

end
-- ==== Proof.KI.RunLater.lean ====
/- The body at a later grid point, run once on any whole staging memrefs: the branch is skipped, the scratch is
   only read (it holds what the first point stored), and the two 200-row halves of the output block are stored,
   each computed from one half of the support block and the scratch. -/
import proofs.«157339_g15178414424503_retrytranche2_113_5_alg».proof.Proof.KI.Setup

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A later point's run: the output block's stores as pieces (last first), with the proof that, holding the
    two support halves at their contents, the scratch at `xs`, the features and weight buffers and the output
    buffer at anything they are handed at, the body runs to a continuation holding everything it only read as it
    was and the output buffer with those pieces written. -/
noncomputable def runLater (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : ¬isFirst i)
    (x0 : Vec F S10000x128 .f32) (x1 : Vec F S128x128 .f32) (x2 : Vec F S200x10000 .f32) (x3 : Vec F S200x10000 .f32) (xs : Vec F S10000x128 .f32) :
    { LO : List (View.Piece (Elt F) S400x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3
            ∗ (∃ d, owns (c : Thread nD τ) a5 fullShare d) ∗ owns (c : Thread nD τ) a6 fullShare xs
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f LO)
                ∗ owns (c : Thread nD τ) a6 fullShare xs) -∗ K ⟨⟩))
          ⊢ wp frame (wpE (defs₀ (F := F)) Variants.none c none) E (cc0__gcn_kernel i a1 h1 a2 h2 a3 h3 a4 h4 a5 h5 a6 h6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := h1.eq_unread hf0; obtain rfl := h2.eq_unread hf1; obtain rfl := h3.eq_unread hf2; obtain rfl := h4.eq_unread hf3; obtain rfl := h6.eq_unread hf5
    sl_exec (disch := exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    iexists _; isplitr; · ipureintro; exact h6.read_unread _
    iexact H5

end Cert.KernelIdeal.Gcn

end
-- ==== Proof.KI.Body.lean ====
/- What the graph-convolution body leaves behind, point by point, and the body obligation.
   The scratch holds the projection features·weight from the first point on and is never stored again, so the
   region's invariant after any point names one and the same contents; the output block after a point is the
   two stored halves read back. The support array is read through two windows (the upper and the lower half of
   each 400-row block), each holding half of the array's share. -/
import proofs.«157339_g15178414424503_retrytranche2_113_5_alg».proof.Proof.KI.RunFirst
import proofs.«157339_g15178414424503_retrytranche2_113_5_alg».proof.Proof.KI.RunLater

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its pieces -/

/-- The first point's one store into the scratch covers it. -/
theorem coverScr_first (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) (y : S10000x128.Idx) :
    ∃ pc ∈ (runFirst c i a1 h1 a2 h2 a3 h3 a4 h4 a5 h5 a6 h6 hc x0 x1 x2 x3).2.1, y ∈ pc.1.set :=
  View.cover_of_tiledL (runFirst c i a1 h1 a2 h2 a3 h3 a4 h4 a5 h5 a6 h6 hc x0 x1 x2 x3).2.1 S10000x128.size (by sl_kernel_rfl) y

/-- What the first point leaves in the scratch. -/
def scrFirst (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) : Vec F S10000x128 .f32 :=
  VScr.read (Elt F) (VScr.writes (Elt F) VScr.junk (runFirst c i a1 h1 a2 h2 a3 h3 a4 h4 a5 h5 a6 h6 hc x0 x1 x2 x3).2.1)

/-- The first point's two stores into the output block tile it. -/
theorem coverOut_first (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) (y : S400x128.Idx) :
    ∃ pc ∈ (runFirst c i a1 h1 a2 h2 a3 h3 a4 h4 a5 h5 a6 h6 hc x0 x1 x2 x3).1, y ∈ pc.1.set :=
  View.cover_of_tiledL (runFirst c i a1 h1 a2 h2 a3 h3 a4 h4 a5 h5 a6 h6 hc x0 x1 x2 x3).1 S200x128.size (by sl_kernel_rfl) y

/-- What the first point leaves in the output block's buffer. -/
def outFirst (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) : Vec F S400x128 .f32 :=
  VOut.read (Elt F) (VOut.writes (Elt F) VOut.junk (runFirst c i a1 h1 a2 h2 a3 h3 a4 h4 a5 h5 a6 h6 hc x0 x1 x2 x3).1)

/-- A later point's two stores into the output block tile it. -/
theorem coverOut_later (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : ¬isFirst i)
    (x0 : Vec F S10000x128 .f32) (x1 : Vec F S128x128 .f32) (x2 : Vec F S200x10000 .f32) (x3 : Vec F S200x10000 .f32) (xs : Vec F S10000x128 .f32) (y : S400x128.Idx) :
    ∃ pc ∈ (runLater c i a1 h1 a2 h2 a3 h3 a4 h4 a5 h5 a6 h6 hc x0 x1 x2 x3 xs).1, y ∈ pc.1.set :=
  View.cover_of_tiledL (runLater c i a1 h1 a2 h2 a3 h3 a4 h4 a5 h5 a6 h6 hc x0 x1 x2 x3 xs).1 S200x128.size (by sl_kernel_rfl) y

/-- What a later point leaves in the output block's buffer. -/
def outLater (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : ¬isFirst i)
    (x0 : Vec F S10000x128 .f32) (x1 : Vec F S128x128 .f32) (x2 : Vec F S200x10000 .f32) (x3 : Vec F S200x10000 .f32) (xs : Vec F S10000x128 .f32) : Vec F S400x128 .f32 :=
  VOut.read (Elt F) (VOut.writes (Elt F) VOut.junk (runLater c i a1 h1 a2 h2 a3 h3 a4 h4 a5 h5 a6 h6 hc x0 x1 x2 x3 xs).1)

/-! ## Point by point -/

/-- The grid's first point. -/
def t0 : Fin cfg0.N := ⟨0, lt_of_lt_of_eq (by decide) N_0.symm⟩
theorem t0_val : (t0 : Fin cfg0.N).val = 0 := rfl

/-- The projection as the scratch holds it after the first point (and ever after). -/
def proj (c : Dev nD) : Vec F S10000x128 .f32 :=
  scrFirst c (grid0.coords t0) (msF t0) (hsF t0) (msW t0) (hsW t0) (msA t0) (hsA t0) (msB t0) (hsB t0) (msO t0) (hsO t0) scP (Memref.isWhole_whole _) ((isFirst_iff t0).mpr t0_val) (iblk m c 0 t0) (iblk m c 1 t0) (iblk m c 2 t0) (iblk m c 3 t0)

/-- What the output block's buffer holds after the body at point `t`. -/
def outAt (c : Dev nD) (t : Fin cfg0.N) : Vec F S400x128 .f32 :=
  if h : t.val = 0 then outFirst c (grid0.coords t) (msF t) (hsF t) (msW t) (hsW t) (msA t) (hsA t) (msB t) (hsB t) (msO t) (hsO t) scP (Memref.isWhole_whole _) ((isFirst_iff t).mpr h) (iblk m c 0 t) (iblk m c 1 t) (iblk m c 2 t) (iblk m c 3 t)
  else outLater c (grid0.coords t) (msF t) (hsF t) (msW t) (hsW t) (msA t) (hsA t) (msB t) (hsB t) (msO t) (hsO t) scP (Memref.isWhole_whole _) (fun h' => h ((isFirst_iff t).mp h')) (iblk m c 0 t) (iblk m c 1 t) (iblk m c 2 t) (iblk m c 3 t) (proj m c)

/-- The region's invariant before position `n`: before the first point the scratch at anything;
    afterwards the scratch at the projection. -/
def PhiS (c : Dev nD) : ℕ → sProp 𝕄
  | 0 => iprop(∃ d, owns (c : Thread nD τ) scP fullShare d)
  | _ + 1 => owns (c : Thread nD τ) scP fullShare (proj m c)

theorem PhiS_succ (c : Dev nD) (n : ℕ) :
    PhiS m c (n + 1) = owns (c : Thread nD τ) scP fullShare (proj m c) := rfl
theorem PhiS_pos (c : Dev nD) (n : ℕ) (hz : n ≠ 0) :
    PhiS m c n = owns (c : Thread nD τ) scP fullShare (proj m c) := by
  cases n with
  | zero => exact absurd rfl hz
  | succ n => rfl

/-! ## The proof data -/

/-- One core's proof data: the arrays as the region finds them; after the body each input's buffer at its
    block and the output's at `outAt`; the invariant `PhiS`; nothing owed; the support array's two windows
    each at half its share, every other window's array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_features (c : Dev nD) (t : Fin cfg0.N) : (dats m 0 c).after 0 t = iblk m c 0 t := by dsimp only [dats]
theorem after_weight (c : Dev nD) (t : Fin cfg0.N) : (dats m 0 c).after 1 t = iblk m c 1 t := by dsimp only [dats]
theorem after_upper (c : Dev nD) (t : Fin cfg0.N) : (dats m 0 c).after 2 t = iblk m c 2 t := by dsimp only [dats]
theorem after_lower (c : Dev nD) (t : Fin cfg0.N) : (dats m 0 c).after 3 t = iblk m c 3 t := by dsimp only [dats]
theorem after_out (c : Dev nD) (t : Fin cfg0.N) : (dats m 0 c).after 4 t = outAt m c t := by dsimp only [dats]

theorem found_features (c : Dev nD) (t : Fin cfg0.N) (d) : (dats m 0 c).before 0 t d = iblk m c 0 t :=
  before_features m (dats m 0 c) (A_eq m c 0) (after_features m c) t d
theorem found_weight (c : Dev nD) (t : Fin cfg0.N) (d) : (dats m 0 c).before 1 t d = iblk m c 1 t :=
  before_weight m (dats m 0 c) (A_eq m c 1) (after_weight m c) t d
theorem found_upper (c : Dev nD) (t : Fin cfg0.N) (d) : (dats m 0 c).before 2 t d = iblk m c 2 t :=
  before_upper m (dats m 0 c) (A_eq m c 2) (after_upper m c) t d
theorem found_lower (c : Dev nD) (t : Fin cfg0.N) (d) : (dats m 0 c).before 3 t d = iblk m c 3 t :=
  before_lower m (dats m 0 c) (A_eq m c 3) (after_lower m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (msF t) fullShare ((dats m 0 c).before 0 t d))
    ∗ (∃ d, owns (c : Thread nD τ) (msW t) fullShare ((dats m 0 c).before 1 t d))
    ∗ (∃ d, owns (c : Thread nD τ) (msA t) fullShare ((dats m 0 c).before 2 t d))
    ∗ (∃ d, owns (c : Thread nD τ) (msB t) fullShare ((dats m 0 c).before 3 t d))
    ∗ (∃ d, owns (c : Thread nD τ) (msO t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (msF t) fullShare ((dats m 0 c).after 0 t)
    ∗ owns (c : Thread nD τ) (msW t) fullShare ((dats m 0 c).after 1 t)
    ∗ owns (c : Thread nD τ) (msA t) fullShare ((dats m 0 c).after 2 t)
    ∗ owns (c : Thread nD τ) (msB t) fullShare ((dats m 0 c).after 3 t)
    ∗ owns (c : Thread nD τ) (msO t) fullShare ((dats m 0 c).after 4 t))

set_option maxHeartbeats 4800000 in
/-- The body at any point. The inputs' buffers hold their blocks; at the first point the invariant hands the
    scratch over at anything and takes it back at the projection (the one store covers it); at a later point
    it hands the scratch over at the projection and takes it back untouched; the output buffer is taken back at
    the two stored halves read back (they tile it). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_features, found_weight, found_upper, found_lower]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  rw [after_features, after_weight, after_upper, after_lower, after_out]
  by_cases hz : t.val = 0
  · rw [show PhiS m c t.val = iprop(∃ d, owns (c : Thread nD τ) scP fullShare d) from by rw [hz]; rfl]
    rw [show outAt m c t = outFirst c (grid0.coords t) (msF t) (hsF t) (msW t) (hsW t) (msA t) (hsA t) (msB t) (hsB t) (msO t) (hsO t) scP (Memref.isWhole_whole _) ((isFirst_iff t).mpr hz) (iblk m c 0 t) (iblk m c 1 t) (iblk m c 2 t) (iblk m c 3 t) from dif_pos hz]
    unfold outFirst
    iintro ⟨HS, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro
      have ht : t = t0 := Fin.ext hz
      subst ht
      unfold proj scrFirst
      exact View.read_writes_of_cover _ _ _ _ _ (coverScr_first c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut_first c _ _ _ _ _ _ _ _ _ _ _ _ _ _ _ _ _ _)
  · rw [PhiS_pos m c _ hz]
    rw [show outAt m c t = outLater c (grid0.coords t) (msF t) (hsF t) (msW t) (hsW t) (msA t) (hsA t) (msB t) (hsB t) (msO t) (hsO t) scP (Memref.isWhole_whole _) (fun h' => hz ((isFirst_iff t).mp h')) (iblk m c 0 t) (iblk m c 1 t) (iblk m c 2 t) (iblk m c 3 t) (proj m c) from dif_neg hz]
    unfold outLater
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h' => hz ((isFirst_iff t).mp h')) (iblk m c 0 t) (iblk m c 1 t) (iblk m c 2 t) (iblk m c 3 t) (proj m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut_later c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The scratch at anything is the invariant before the first point. -/
theorem hin (c : Dev nD) : iprop(∃ d, owns (c : Thread nD τ) scP fullShare d) ⊢ (dats m 0 c).Φ 0 := by
  rw [show (dats m 0 c).Φ 0 = PhiS m c 0 from rfl]
  exact Idealize.SL.BI.Entails.refl _

/-- After the last point the invariant gives the scratch back at some contents: what it holds is forgotten. -/
theorem hout (c : Dev nD) : (dats m 0 c).Φ (Fin.last cfg0.N) ⊢ iprop(∃ d, owns (c : Thread nD τ) scP fullShare d) := by
  rw [show (dats m 0 c).Φ (Fin.last cfg0.N) = PhiS m c (Fin.last cfg0.N).val from rfl,
    PhiS_pos m c _ (by rw [Fin.val_last]; have : cfg0.N = 25 := N_0; omega)]
  iintro HS
  iexists _; iexact HS

end Cert.KernelIdeal.Gcn

end
-- ==== Proof.KI.Launch.lean ====
/- The launch of the graph-convolution kernel and its frame. The kernel is handed the support array twice (the
   upper and the lower half of each 400-row block are two windows on one array), so the array's full share is dealt
   between the two windows, half each; every other array goes to its one window whole. The run then follows from the
   library's launch theorem for a kernel with no semaphore of its own whose windows may share arrays, with the body
   obligation and the scratch invariant of the previous module. -/
import proofs.«157339_g15178414424503_retrytranche2_113_5_alg».proof.Proof.KI.Body

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's ghost state is the whole user algebra. -/
abbrev EP : Emb (UR sig nD τ) (MT nD τ sig Unit (Elt F) ℕ (UR sig nD τ) ℕ) := emb₁

/-- The launch element: every staging cell's owner at round 0 and a duty token for every transfer the pipeline
    issues. -/
def u₀ : UR sig nD τ := initOf (Pipeline.cells cfgs cellOf_inj) (Pipeline.launchToks cfgs cellOf_inj)

/-- An array's contents after the run, as the library computes them from the proof data. -/
def finalA (c : Dev nD) (w : Fin cfg0.W) : Buf (Elt F) ((cfg0.win w).arr.view.loc (c : Thread nD τ)) :=
  (dats m 0 c).arrAt w cfg0.N

/-- The run's post: every window's array holds what the library computes it holds after the last write-back. -/
def QC : PUnit × MemSt nD τ sig (Elt F) → Prop := fun r =>
  ∀ (c : Dev nD) (w : Fin cfg0.W), r.2.mem ((cfg0.win w).arr.view.loc (c : Thread nD τ)) = finalA m c w

/-- A window's array is a whole buffer, so the points-to over its view's elements is the points-to over the buffer. -/
theorem arr_pt (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = ((cfg0.win w).arr.view.loc (c.tc : Thread nD τ) ↦{q} f) := by
  have h : (cfg0.win w).arr.IsWhole := arr_whole0 w
  rw [h.set_eq_univ]

/-- The four distinct buffers behind the five windows, each whole at the full share, make the proof data's arrays
    at entry: features, weight and the result each to its window; the support array split in two halves of its
    share, one per window on it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have hL : (bigSep (Finset.univ.image (Pipeline.arrRef spec0)) fun b => (((c.tc : Thread nD τ).loc b) ↦{fullShare} V m c b : sProp 𝕄))
      = iprop((((c.tc : Thread nD τ).loc main_arg0) ↦{fullShare} V m c main_arg0) ∗ (((c.tc : Thread nD τ).loc main_arg2) ↦{fullShare} V m c main_arg2)
          ∗ (((c.tc : Thread nD τ).loc main_arg1) ↦{fullShare} V m c main_arg1) ∗ (((c.tc : Thread nD τ).loc main_v0) ↦{fullShare} V m c main_v0)) :=
    BI.bigSep_eq_bigSepL_of_eq [main_arg0, main_arg2, main_arg1, main_v0] (by decide) (by decide) _
  rw [bigSep_W0, hL, arr_pt c 0, arr_pt c 1, arr_pt c 2, arr_pt c 3, arr_pt c 4]
  iintro ⟨H0, H2, H1, Hv⟩
  ihave ⟨H1a, H1b⟩ := (pointsTo_share (PosShare.mem_left_op_right fullShare)).1 $$ H1
  isplitl [H0]; · iexact H0
  isplitl [H2]; · iexact H2
  isplitl [H1a]; · iexact H1a
  isplitl [H1b]; · iexact H1b
  iexact Hv

set_option backward.isDefEq.respectTransparency.types false in
/-- At the compiled mesh, from any memory with zero counters: every weakly fair execution of @main terminates, and
    every final state has each window's array at what the library computes from the proof data. -/
theorem run_main : θ_run defs (onTc (τ := τ) (main (F := F))) (s₀ m ρ) (QC m) := by
  classical
  exact Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [scoped_eq]
      iintro ⟨-, HS⟩
      iapply (hin m c); iexact HS)
    (hout := fun c => by
      rw [scoped_eq]
      iintro HS
      isplitr; · iempintro
      iapply (hout m c); iexact HS)
    (QY := fun _ _ => True)
    (hY := fun c s' => by
      iintro ⟨-, -, HSI⟩; imodintro
      isplitr; · ipureintro; trivial
      iexact HSI)
    (hQ := fun _ h c w => (h c).1 w)

/-- The input arrays end as they began: the library never writes an input window's array. -/
theorem final_features (c : Dev nD) : finalA m c (0 : Fin 5) = m ((c : Thread nD τ).loc main_arg0) :=
  (dats (F := F) m 0 c).arrAt_in (0 : Fin 5) rfl _
theorem final_weight (c : Dev nD) : finalA m c (1 : Fin 5) = m ((c : Thread nD τ).loc main_arg2) :=
  (dats (F := F) m 0 c).arrAt_in (1 : Fin 5) rfl _
theorem final_support (c : Dev nD) : finalA m c (2 : Fin 5) = m ((c : Thread nD τ).loc main_arg1) :=
  (dats (F := F) m 0 c).arrAt_in (2 : Fin 5) rfl _

/-- THE FRAME, at any instance: the program runs to the end without a fault and its three argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c (0 : Fin 5)).trans (final_features m c), (h c (2 : Fin 5)).trans (final_support m c),
      (h c (1 : Fin 5)).trans (final_weight m c)⟩)
    (run_main m ρ)

end Cert.KernelIdeal.Gcn

end
-- ==== Proof.KI.Found.lean ====
/- What the runs found, in closed form: the scratch after the first point holds the projection computed from the
   features and weight blocks, and the output block's buffer after any point holds two stacked 200-row halves, the
   upper computed from the upper half of the support block and the lower from the lower half, both against that one
   projection — at the first point read back from the scratch just written, at a later point found in the scratch. -/
import proofs.«157339_g15178414424503_retrytranche2_113_5_alg».proof.Proof.KI.Body
import Idealize.ShloMosaic.Lib.Pipeline.Value

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Two 200-row halves stacked into a 400-row block: the lower half (rows 200–399) from `x3`, the upper (rows 0–199)
    from `x2`, both against the projection `p`. -/
def halves (x2 x3 : Vec F S200x10000 .f32) (p : Vec F S10000x128 .f32) : Vec F S400x128 .f32 :=
  View.canon [(⟨Rect.unit (s := S400x128) ![200, 0] S200x128.size inb_S400x128_S200x128_200_0, k0_pay3 x3 p⟩ : View.Piece (Elt F) S400x128 .f32),
    ⟨Rect.unit (s := S400x128) ![0, 0] S200x128.size inb_S400x128_S200x128_0_0, k0_pay2 x2 p⟩]

/-- The first point leaves the projection of its features and weight blocks in the scratch. -/
theorem scrFirst_eq (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) :
    scrFirst c i a1 h1 a2 h2 a3 h3 a4 h4 a5 h5 a6 h6 hc x0 x1 x2 x3 = k0_pay1 x0 x1 := by
  unfold scrFirst
  rw [View.read_writes_junk_eq_canon]
  unfold runFirst; dsimp only; sl_unfold_words
  rw [View.canon_unit_zero hz]
  simp only [View.readAt_eq_ld, h1.read_unread, h2.read_unread, View.ld_unit_zero (S := S10000x128) hz, View.ld_unit_zero (S := S128x128) hz]

/-- The first point leaves in the output block's buffer the two halves over the projection it has just stored. -/
theorem outFirst_eq (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : isFirst i)
    (x0 : Vec F S10000x128 .f32) (x1 : Vec F S128x128 .f32) (x2 : Vec F S200x10000 .f32) (x3 : Vec F S200x10000 .f32) :
    outFirst c i a1 h1 a2 h2 a3 h3 a4 h4 a5 h5 a6 h6 hc x0 x1 x2 x3 = halves x2 x3 (k0_pay1 x0 x1) := by
  unfold outFirst halves
  rw [View.read_writes_junk_eq_canon]
  unfold runFirst; dsimp only; sl_unfold_words
  simp only [View.readCov_unit_zero (S := S10000x128) _ hz, View.readAt_eq_ld, h1.read_unread, h2.read_unread, h3.read_unread, h4.read_unread,
    View.ld_unit_zero (S := S10000x128) hz, View.ld_unit_zero (S := S128x128) hz, View.ld_unit_zero (S := S200x10000) hz]

/-- A later point leaves the two halves over whatever projection the scratch holds. -/
theorem outLater_eq (c : Dev nD) (i : grid0.Coords) (a1 : Memref sig .tc .vmem S10000x128 .f32) (h1 : a1.IsWhole) (a2 : Memref sig .tc .vmem S128x128 .f32) (h2 : a2.IsWhole) (a3 : Memref sig .tc .vmem S200x10000 .f32) (h3 : a3.IsWhole) (a4 : Memref sig .tc .vmem S200x10000 .f32) (h4 : a4.IsWhole) (a5 : Memref sig .tc .vmem S400x128 .f32) (h5 : a5.IsWhole) (a6 : Memref sig .tc .vmem S10000x128 .f32) (h6 : a6.IsWhole) (hc : ¬isFirst i)
    (x0 : Vec F S10000x128 .f32) (x1 : Vec F S128x128 .f32) (x2 : Vec F S200x10000 .f32) (x3 : Vec F S200x10000 .f32) (xs : Vec F S10000x128 .f32) :
    outLater c i a1 h1 a2 h2 a3 h3 a4 h4 a5 h5 a6 h6 hc x0 x1 x2 x3 xs = halves x2 x3 xs := by
  unfold outLater halves
  rw [View.read_writes_junk_eq_canon]
  unfold runLater; dsimp only; sl_unfold_words
  simp only [View.readAt_eq_ld, h3.read_unread, h4.read_unread, h6.read_unread,
    View.ld_unit_zero (S := S10000x128) hz, View.ld_unit_zero (S := S200x10000) hz]

/-- The scratch, from the first point on, holds the projection of the whole features and weight arrays' blocks. -/
theorem proj_eq (c : Dev nD) : proj m c = k0_pay1 (iblk m c 0 t0) (iblk m c 1 t0) :=
  scrFirst_eq c _ _ _ _ _ _ _ _ _ _ _ _ _ _ _ _ _ _

/-- After the body at any point the output block's buffer holds the two halves of that point's support block
    against the projection. -/
theorem outAt_eq (c : Dev nD) (t : Fin cfg0.N) :
    outAt m c t = halves (iblk m c 2 t) (iblk m c 3 t) (k0_pay1 (iblk m c 0 t0) (iblk m c 1 t0)) := by
  unfold outAt
  split
  · rename_i h
    have ht : t = t0 := Fin.ext h
    subst ht
    exact outFirst_eq c _ _ _ _ _ _ _ _ _ _ _ _ _ _ _ _ _ _
  · rw [outLater_eq, proj_eq]

end Cert.KernelIdeal.Gcn

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.KI.Payload.lean ====
/- The body's three stored values at an entry, over the extended reals: the projection features·weight at (k, j) is a sum
   over the 128 feature columns; each 200-row half of an output block at (y, j) is the larger of zero and the sum, over
   the 10000 rows of the projection, of that half's row y of the support block times the projection's column j. -/
import proofs.«157339_g15178414424503_retrytranche2_113_5_alg».proof.Proof.Gen.KernelIdeal.Skeleton
import proofs.«157339_g15178414424503_retrytranche2_113_5_alg».proof.Proof.LibPlainMatmul
import Idealize.ShloMosaic.Lib.Pipeline.Value

noncomputable section

open scoped BigOperators

namespace Cert.KernelIdeal.GcnValue

open Idealize.ShloMosaic Idealize.ShloMosaic.ValueIdx Cert.KernelIdeal Cert.KernelIdeal.Gen

/-- The value stored into the scratch at the first point, at entry `(k, j)`: row `k` of the features against column
    `j` of the weight. -/
theorem projection_at (x0 : FVec Ideal S10000x128 .f32) (x1 : FVec Ideal S128x128 .f32) (k : Fin 10000) (j : Fin 128) :
    k0_pay1 (F := Ideal) x0 x1 (ix2 k j) = ∑ e : Fin 128, x0 (ix2 k e) * x1 (ix2 e j) := by
  unfold k0_pay1
  show shapeCast S10000x128 (matmul (DotDims.plain 10000 128 128) none x0 x1
      (constant (F := Ideal) ⟨2, ![10000, 128]⟩ .f32 0x00000000#32)) _ (ix2 k j) = _
  rw [shapeCast_self]
  exact Cert.PlainMatmul.matmul_zero_apply none x0 x1 k j

/-- The upper half of an output block at entry `(y, j)`. -/
theorem upper_at (x2 : FVec Ideal S200x10000 .f32) (p : FVec Ideal S10000x128 .f32) (y : Fin 200) (j : Fin 128) :
    k0_pay2 (F := Ideal) x2 p (ix2 y j) = max (∑ k : Fin 10000, x2 (ix2 y k) * p (ix2 k j)) (Ideal.ofBits .f32 0x00000000#32) := by
  unfold k0_pay2
  show max (matmul (DotDims.plain 200 10000 128) none x2 p (constant (F := Ideal) ⟨2, ![200, 128]⟩ .f32 0x00000000#32) (ix2 y j))
      (Ideal.ofBits .f32 0x00000000#32) = _
  rw [Cert.PlainMatmul.matmul_zero_apply]

/-- The lower half of an output block at entry `(y, j)`. -/
theorem lower_at (x3 : FVec Ideal S200x10000 .f32) (p : FVec Ideal S10000x128 .f32) (y : Fin 200) (j : Fin 128) :
    k0_pay3 (F := Ideal) x3 p (ix2 y j) = max (∑ k : Fin 10000, x3 (ix2 y k) * p (ix2 k j)) (Ideal.ofBits .f32 0x00000000#32) := by
  unfold k0_pay3
  show max (matmul (DotDims.plain 200 10000 128) none x3 p (constant (F := Ideal) ⟨2, ![200, 128]⟩ .f32 0x00000000#32) (ix2 y j))
      (Ideal.ofBits .f32 0x00000000#32) = _
  rw [Cert.PlainMatmul.matmul_zero_apply]

end Cert.KernelIdeal.GcnValue

end
-- ==== Proof.Layer.lean ====
/-
  One graph-convolution layer over the extended reals, entry by entry.

  With features `X` (10000 × 128), a dense adjacency `S` (10000 × 10000) and a weight `W` (128 × 128) the layer is
  `relu (S · (X · W))`: entry `(r, j)` is the larger of `∑ k, S (r, k) · (∑ e, X (k, e) · W (e, j))` and zero. The
  association is the one both programs compute in — the projection `X · W` first, then its product with `S` — so
  nothing here needs the inputs to be finite.
-/
import Idealize.ShloMosaic.Lib.ValueIdx
import Idealize.ShloMosaic.PureOps.Ideal.Laws

noncomputable section

open scoped BigOperators

namespace Cert.GcnLayer

open Idealize.ShloMosaic Idealize.ShloMosaic.ValueIdx

/-- The projection `X · W` at entry `(k, j)`. -/
def projAt (X : FVec Ideal ⟨2, ![10000, 128]⟩ .f32) (W : FVec Ideal ⟨2, ![128, 128]⟩ .f32) (k : Fin 10000) (j : Fin 128) : EReal :=
  ∑ e : Fin 128, X (ix2 k e) * W (ix2 e j)

/-- The layer `relu (S · (X · W))` at entry `(r, j)`; the zero it is clamped at is the f32 word of `+0.0`. -/
def layerAt (X : FVec Ideal ⟨2, ![10000, 128]⟩ .f32) (S : FVec Ideal ⟨2, ![10000, 10000]⟩ .f32) (W : FVec Ideal ⟨2, ![128, 128]⟩ .f32)
    (r : Fin 10000) (j : Fin 128) : EReal :=
  max (∑ k : Fin 10000, S (ix2 r k) * projAt X W k j) (Ideal.ofBits .f32 0x00000000#32)

/-- The layer as a whole array. -/
def layer (X : FVec Ideal ⟨2, ![10000, 128]⟩ .f32) (S : FVec Ideal ⟨2, ![10000, 10000]⟩ .f32) (W : FVec Ideal ⟨2, ![128, 128]⟩ .f32) :
    FVec Ideal ⟨2, ![10000, 128]⟩ .f32 :=
  fun i => layerAt X S W (i 0) (i 1)

theorem layer_ix2 (X : FVec Ideal ⟨2, ![10000, 128]⟩ .f32) (S : FVec Ideal ⟨2, ![10000, 10000]⟩ .f32) (W : FVec Ideal ⟨2, ![128, 128]⟩ .f32)
    (r : Fin 10000) (j : Fin 128) : layer X S W (ix2 r j) = layerAt X S W r j := rfl

end Cert.GcnLayer

end
-- ==== Proof.KI.Value.lean ====
/- The idealized kernel's result array is the layer, entry by entry.

   Grid point t owns output rows 400·t … 400·t + 399. Its upper support window is rows 400·t … 400·t + 199 of the support
   matrix (block index 2·t of 200-row blocks), its lower one rows 400·t + 200 … 400·t + 399 (block index 2·t + 1); the
   features and weight windows are the whole arrays at every point. So row p of the block it writes back is, for
   p < 200, row 400·t + p of support against the projection, and for p ≥ 200 likewise through the lower window: in
   both cases the layer's row 400·t + p. The 25 blocks cover the array, so the array ends holding the layer. -/
import proofs.«157339_g15178414424503_retrytranche2_113_5_alg».proof.Proof.KI.Launch
import proofs.«157339_g15178414424503_retrytranche2_113_5_alg».proof.Proof.KI.Found
import proofs.«157339_g15178414424503_retrytranche2_113_5_alg».proof.Proof.KI.Payload
import proofs.«157339_g15178414424503_retrytranche2_113_5_alg».proof.Proof.Layer

set_option maxRecDepth 16384

noncomputable section

open scoped BigOperators

namespace Cert.KernelIdeal.GcnValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Gcn

variable (m : (ℓ : Loc nD τ sig) → Buf (Elt Ideal) ℓ) (ρ : Dev nD → PrngReg)

/-- The printed index maps, decided over the 25 grid points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 25 := lt_of_lt_of_eq t.isLt N_0

/-! ## The input blocks, read at an entry -/

/-- The features window's block is the whole features array. -/
theorem features_blk (c : Dev nD) (k : Fin 10000) (e : Fin 128) :
    iblk m c 0 t0 (ix2 k e) = m ((c : Thread nD τ).loc main_arg0) (ix2 k e) := by
  obtain ⟨e0, e1, -⟩ := idx_facts t0
  show V m c main_arg0 (((cfg0.win 0).blk t0).view.emb (ix2 k e)) = V m c main_arg0 (ix2 k e)
  refine congrArg _ (funext fun a => Fin.ext ?_)
  match a with
  | ⟨0, _⟩ => show win0_0.index t0 (0 : Fin 2) * 10000 + 1 * k.val = k.val; omega
  | ⟨1, _⟩ => show win0_0.index t0 (1 : Fin 2) * 128 + 1 * e.val = e.val; omega

/-- The weight window's block is the whole weight array. -/
theorem weight_blk (c : Dev nD) (e : Fin 128) (j : Fin 128) :
    iblk m c 1 t0 (ix2 e j) = m ((c : Thread nD τ).loc main_arg2) (ix2 e j) := by
  obtain ⟨-, -, e2, e3, -⟩ := idx_facts t0
  show V m c main_arg2 (((cfg0.win 1).blk t0).view.emb (ix2 e j)) = V m c main_arg2 (ix2 e j)
  refine congrArg _ (funext fun a => Fin.ext ?_)
  match a with
  | ⟨0, _⟩ => show win0_1.index t0 (0 : Fin 2) * 128 + 1 * e.val = e.val; omega
  | ⟨1, _⟩ => show win0_1.index t0 (1 : Fin 2) * 128 + 1 * j.val = j.val; omega

/-- Row `y` of point `t`'s upper support window is row `400·t + y` of the support matrix. -/
theorem upper_blk (c : Dev nD) (t : Fin cfg0.N) (y : Fin 200) (k : Fin 10000) (r : Fin 10000) (hr : r.val = 400 * t.val + y.val) :
    iblk m c 2 t (ix2 y k) = m ((c : Thread nD τ).loc main_arg1) (ix2 r k) := by
  obtain ⟨-, -, -, -, e4, e5, -⟩ := idx_facts t
  show V m c main_arg1 (((cfg0.win 2).blk t).view.emb (ix2 y k)) = V m c main_arg1 (ix2 r k)
  refine congrArg _ (funext fun a => Fin.ext ?_)
  match a with
  | ⟨0, _⟩ => show win0_2.index t (0 : Fin 2) * 200 + 1 * y.val = r.val; omega
  | ⟨1, _⟩ => show win0_2.index t (1 : Fin 2) * 10000 + 1 * k.val = k.val; omega

/-- Row `y` of point `t`'s lower support window is row `400·t + 200 + y` of the support matrix. -/
theorem lower_blk (c : Dev nD) (t : Fin cfg0.N) (y : Fin 200) (k : Fin 10000) (r : Fin 10000) (hr : r.val = 400 * t.val + 200 + y.val) :
    iblk m c 3 t (ix2 y k) = m ((c : Thread nD τ).loc main_arg1) (ix2 r k) := by
  obtain ⟨-, -, -, -, -, -, e6, e7, -⟩ := idx_facts t
  show V m c main_arg1 (((cfg0.win 3).blk t).view.emb (ix2 y k)) = V m c main_arg1 (ix2 r k)
  refine congrArg _ (funext fun a => Fin.ext ?_)
  match a with
  | ⟨0, _⟩ => show win0_3.index t (0 : Fin 2) * 200 + 1 * y.val = r.val; omega
  | ⟨1, _⟩ => show win0_3.index t (1 : Fin 2) * 10000 + 1 * k.val = k.val; omega

/-! ## The two stacked halves, read at an entry -/

/-- Rows 0–199 of the stacked block are the upper half. -/
theorem halves_upper (x2 x3 : FVec Ideal S200x10000 .f32) (p : FVec Ideal S10000x128 .f32) (y : Fin 200) (j : Fin 128)
    (q : Fin 400) (hq : q.val = y.val) : halves (F := Ideal) x2 x3 p (ix2 q j) = k0_pay2 (F := Ideal) x2 p (ix2 y j) := by
  unfold halves
  rw [View.canon_cons_of_not_mem _ _ (by
    rw [Rect.mem_set_unit]
    intro h
    have h0 := (h 0).1
    change 200 ≤ q.val at h0
    omega)]
  have he : (Rect.unit (s := S400x128) ![0, 0] S200x128.size inb_S400x128_S200x128_0_0).emb (ix2 y j) = ix2 q j :=
    funext fun a => Fin.ext (by
      rw [Rect.emb_apply]
      match a with
      | ⟨0, _⟩ => show 0 + 1 * y.val = q.val; omega
      | ⟨1, _⟩ => show 0 + 1 * j.val = j.val; omega)
  rw [← he]
  exact View.canon_cons_emb _ _ _ _

/-- Rows 200–399 of the stacked block are the lower half. -/
theorem halves_lower (x2 x3 : FVec Ideal S200x10000 .f32) (p : FVec Ideal S10000x128 .f32) (y : Fin 200) (j : Fin 128)
    (q : Fin 400) (hq : q.val = 200 + y.val) : halves (F := Ideal) x2 x3 p (ix2 q j) = k0_pay3 (F := Ideal) x3 p (ix2 y j) := by
  unfold halves
  have he : (Rect.unit (s := S400x128) ![200, 0] S200x128.size inb_S400x128_S200x128_200_0).emb (ix2 y j) = ix2 q j :=
    funext fun a => Fin.ext (by
      rw [Rect.emb_apply]
      match a with
      | ⟨0, _⟩ => show 200 + 1 * y.val = q.val; omega
      | ⟨1, _⟩ => show 0 + 1 * j.val = j.val; omega)
  rw [← he]
  exact View.canon_cons_emb _ _ _ _

/-! ## From blocks to the array -/

/-- The kept projection at an entry is the layer's projection of the features and weight arrays. -/
theorem kept_projection (c : Dev nD) (k : Fin 10000) (j : Fin 128) :
    k0_pay1 (F := Ideal) (iblk m c 0 t0) (iblk m c 1 t0) (ix2 k j)
      = Cert.GcnLayer.projAt (m ((c : Thread nD τ).loc main_arg0)) (m ((c : Thread nD τ).loc main_arg2)) k j := by
  rw [projection_at]
  unfold Cert.GcnLayer.projAt
  exact Finset.sum_congr rfl fun e _ => by rw [features_blk, weight_blk]

/-- WHAT POINT `t` WRITES BACK is block `t` of the layer of the argument arrays. -/
theorem flushed_eq (c : Dev nD) (t : Fin cfg0.N) :
    (dats m 0 c).flushed 4 t = ((cfg0.win 4).blk t).view.read (Elt Ideal)
      (Cert.GcnLayer.layer (m ((c : Thread nD τ).loc main_arg0)) (m ((c : Thread nD τ).loc main_arg1)) (m ((c : Thread nD τ).loc main_arg2))) := by
  show (cfg0.win 4).cut (grid0.coords t) ((dats m 0 c).after 4 t) = _
  rw [after_out, outAt_eq]
  have ht := t_lt t
  obtain ⟨-, -, -, -, -, -, -, -, e8, e9⟩ := idx_facts t
  funext y
  obtain ⟨q, j, rfl⟩ : ∃ (q : Fin 400) (j : Fin 128), y = ix2 q j := ⟨y 0, y 1, eq_ix2 y⟩
  have hq := q.isLt
  -- the array row this block row sits at
  have hrow : 400 * t.val + q.val < 10000 := by omega
  have hemb : ((cfg0.win 4).blk t).view.emb (ix2 q j) = ix2 (⟨400 * t.val + q.val, hrow⟩ : Fin 10000) j :=
    funext fun a => Fin.ext (by
      match a with
      | ⟨0, _⟩ => show win0_4.index t (0 : Fin 2) * 400 + 1 * q.val = 400 * t.val + q.val; omega
      | ⟨1, _⟩ => show win0_4.index t (1 : Fin 2) * 128 + 1 * j.val = j.val; omega)
  show halves (iblk m c 2 t) (iblk m c 3 t) (k0_pay1 (iblk m c 0 t0) (iblk m c 1 t0)) (ix2 q j)
    = Cert.GcnLayer.layer _ _ _ (((cfg0.win 4).blk t).view.emb (ix2 q j))
  rw [hemb, Cert.GcnLayer.layer_ix2]
  unfold Cert.GcnLayer.layerAt
  by_cases hlt : q.val < 200
  · rw [halves_upper _ _ _ ⟨q.val, hlt⟩ j q rfl, upper_at]
    refine congrArg (fun s => max s _) (Finset.sum_congr rfl fun k _ => ?_)
    rw [upper_blk m c t ⟨q.val, hlt⟩ k ⟨400 * t.val + q.val, hrow⟩ rfl, kept_projection]
  · have hge : 200 ≤ q.val := Nat.le_of_not_lt hlt
    rw [halves_lower _ _ _ ⟨q.val - 200, by omega⟩ j q (by show q.val = 200 + (q.val - 200); omega), lower_at]
    refine congrArg (fun s => max s _) (Finset.sum_congr rfl fun k _ => ?_)
    rw [lower_blk m c t ⟨q.val - 200, by omega⟩ k ⟨400 * t.val + q.val, hrow⟩ (by show 400 * t.val + q.val = 400 * t.val + 200 + (q.val - 200); omega),
      kept_projection]

/-- An index of the result array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every row of the result array is in the block of the point `row / 400`. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : (i 0).val / 400 < cfg0.N := lt_of_lt_of_eq (show (i 0).val / 400 < 25 by omega) N_0.symm
  obtain ⟨-, -, -, -, -, -, -, -, e8, e9⟩ := idx_facts ⟨(i 0).val / 400, hN⟩
  refine ⟨⟨(i 0).val / 400, hN⟩, flush0_4 _, ?_⟩
  rw [mem_blk]
  intro a
  match a with
  | ⟨0, _⟩ =>
    show win0_4.index ⟨(i 0).val / 400, hN⟩ (0 : Fin 2) * 400 ≤ (i 0).val ∧ (i 0).val < win0_4.index ⟨(i 0).val / 400, hN⟩ (0 : Fin 2) * 400 + 400
    rw [e8]; show (i 0).val / 400 * 400 ≤ (i 0).val ∧ (i 0).val < (i 0).val / 400 * 400 + 400
    omega
  | ⟨1, _⟩ =>
    show win0_4.index ⟨(i 0).val / 400, hN⟩ (1 : Fin 2) * 128 ≤ (i 1).val ∧ (i 1).val < win0_4.index ⟨(i 0).val / 400, hN⟩ (1 : Fin 2) * 128 + 128
    rw [e9]; omega

/-- THE RESULT ARRAY after the run is the layer of the three argument arrays. -/
theorem final (c : Dev nD) :
    finalA m c (4 : Fin 5) = Cert.GcnLayer.layer (m ((c : Thread nD τ).loc main_arg0)) (m ((c : Thread nD τ).loc main_arg1)) (m ((c : Thread nD τ).loc main_arg2)) :=
  (dats m 0 c).arrAt_eq_of_cover 4 _ (fun t _ => flushed_eq m c t) covered

/-- The run re-posted: the result array at the layer of the arguments, the arguments unchanged. -/
theorem run : θ_run defs (onTc (τ := τ) (main (F := Ideal))) ⟨m, fun _ => 0, ρ⟩ fun r => ∀ c : Dev nD,
      r.2.mem ((c.tc : Thread nD τ).loc main_v0) = Cert.GcnLayer.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c (4 : Fin 5)).trans (final m c), (h c (0 : Fin 5)).trans (final_features m c),
      (h c (2 : Fin 5)).trans (final_support m c), (h c (1 : Fin 5)).trans (final_weight m c)⟩)
    (run_main m ρ)

end Cert.KernelIdeal.GcnValue

end
-- ==== Proof.RefSide.lean ====
/- The reference computes the layer: its two matrix products are the projection and the product with the adjacency,
   and its clamp is the maximum with the zero word, entry by entry. -/
import proofs.«157339_g15178414424503_retrytranche2_113_5_alg».proof.Proof.Gen.ReferenceIdeal.Read
import proofs.«157339_g15178414424503_retrytranche2_113_5_alg».proof.Proof.Layer
import proofs.«157339_g15178414424503_retrytranche2_113_5_alg».proof.Proof.LibPlainMatmul

noncomputable section

open scoped BigOperators

namespace Cert.ReferenceIdeal.RefLayer

open Idealize.ShloMosaic Idealize.ShloMosaic.ValueIdx Cert.ReferenceIdeal

/-- The reference's result, as a function of its three arguments, is the layer. -/
theorem result_eq_layer (x0 : FVec Ideal S10000x128 .f32) (x1 : FVec Ideal S10000x10000 .f32) (x2 : FVec Ideal S128x128 .f32) :
    Cert.ReferenceIdeal.Read.val_main_v2 (F := Ideal) x0 x1 x2 = Cert.GcnLayer.layer x0 x1 x2 := by
  funext i
  obtain ⟨r, j, rfl⟩ : ∃ (r : Fin 10000) (j : Fin 128), i = ix2 r j := ⟨i 0, i 1, eq_ix2 i⟩
  show max (Host.dotGeneral (DotDims.plain 10000 10000 128) none x1
      (Host.dotGeneral (DotDims.plain 10000 128 128) none x0 x2) (ix2 r j)) (Ideal.ofBits .f32 0x00000000#32) = _
  rw [Cert.PlainMatmul.dotGeneral_apply, Cert.GcnLayer.layer_ix2]
  unfold Cert.GcnLayer.layerAt Cert.GcnLayer.projAt
  refine congrArg (fun s => max s _) (Finset.sum_congr rfl fun k _ => ?_)
  rw [Cert.PlainMatmul.dotGeneral_apply]

end Cert.ReferenceIdeal.RefLayer

end
-- ==== Proof.lean ====
/- The proof of the certificate's claim for one dense graph-convolution layer, relu (support · (features · weight)).

   The kernel walks the 10000 output rows in 25 blocks of 400. At the first block it computes the projection
   features · weight once and keeps it in a scratch buffer; at every block it multiplies the block's 400 rows of the
   support matrix (handed to it as two windows of 200 rows on the one support array) by the kept projection and clamps
   at zero. The reference computes the same two products in the same association and clamps at zero, so at the exact
   (extended-real) reading the two results agree entry by entry with no condition on the inputs:
     • Proof/K/* and Proof/KI/* — the kernel's run, at the word level and at the exact reading: the body at the first
       point and at a later one, what the scratch and the output block hold after each point, the launch with the
       support array's share dealt between its two windows, and the frame;
     • Proof/KI/Payload.lean, Proof/KI/Value.lean — the kernel's result array is the layer, entry by entry;
     • Proof/RefSide.lean — the reference's result is the layer;
     • Proof/Layer.lean — the layer itself.
   The idealization rewrote nothing, so its soundness conjunct is trivial. -/
import proofs.«157339_g15178414424503_retrytranche2_113_5_alg».proof.Defs
import proofs.«157339_g15178414424503_retrytranche2_113_5_alg».proof.Proof.Gen.Kernel
import proofs.«157339_g15178414424503_retrytranche2_113_5_alg».proof.Proof.Gen.KernelIdeal
import proofs.«157339_g15178414424503_retrytranche2_113_5_alg».proof.Proof.Gen.ReferenceIdeal
import proofs.«157339_g15178414424503_retrytranche2_113_5_alg».proof.Proof.Gen.ReferenceIdeal.Run
import proofs.«157339_g15178414424503_retrytranche2_113_5_alg».proof.Proof.Gen.Pre_finite_inputs
import proofs.«157339_g15178414424503_retrytranche2_113_5_alg».proof.Proof.K.Launch
import proofs.«157339_g15178414424503_retrytranche2_113_5_alg».proof.Proof.KI.Value
import proofs.«157339_g15178414424503_retrytranche2_113_5_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gcn.frame m ρ
theorem frame_ideal : Cert.frame_KernelIdeal := fun m ρ _ => Cert.KernelIdeal.Gcn.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs, from memories agreeing on the three arguments, end with the layer of those arguments in their
    result arrays. -/
theorem algebraic : Cert.algebraic_KernelIdeal_ReferenceIdeal := by
  intro m ρ m' ρ' _ hagree
  refine ⟨fun c => Cert.GcnLayer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefLayer.result_eq_layer _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
